-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1600000x128 .f32) (main_arg1 : FVec F S50000x64 .f32) (main_arg2 : IVec S1600000 32) (main_arg3 : IVec S1600000 32) (main_arg4 : FVec F S64x128 .f32) (main_arg5 : FVec F S64 .f32) (main_arg6 : FVec F S64x64 .f32) (main_arg7 : FVec F S64 .f32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S6400x128 : Shape := ⟨2, ![6400, 128]⟩
abbrev S6400x64 : Shape := ⟨2, ![6400, 64]⟩

abbrev nBuf : Space → Nat
  | .hbm => 24
  | .vmem => 10
  | .smem => 0
  | _ => 0

abbrev bufTy : (tb : Table) → Fin (tcTables nBuf tb) → BufTy
  | .hbm, ⟨0, _⟩ => ⟨S1600000x128, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1x64, .f32⟩
  | .hbm, ⟨18, _⟩ => ⟨S1x64, .f32⟩
  | .hbm, ⟨19, _⟩ => ⟨S1600000x64, .f32⟩
  | .hbm, ⟨20, _⟩ => ⟨S_, .f32⟩
  | .hbm, ⟨21, _⟩ => ⟨S50000x64, .f32⟩
  | .hbm, ⟨22, _⟩ => ⟨S1600000x1, .i32⟩
  | .hbm, ⟨23, _⟩ => ⟨S50000x64, .f32⟩
  | .local _ .vmem, ⟨0, _⟩ => ⟨S6400x128, .f32⟩
  | .local _ .vmem, ⟨1, _⟩ => ⟨S6400x128, .f32⟩
  | .local _ .vmem, ⟨2, _⟩ => ⟨S6400x64, .f32⟩
  | .local _ .vmem, ⟨3, _⟩ => ⟨S6400x64, .f32⟩
  | .local _ .vmem, ⟨4, _⟩ => ⟨S64x128, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6400x64, .f32⟩
  | .local _ .vmem, ⟨9, _⟩ => ⟨S6400x64, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bcast_S_S50000x64 : S_.BroadcastsInDim S50000x64 (![] : Fin 0 → Fin S50000x64.rank)
  gather_S50000x64_S1600000x1_S1600000x64_1_0_n_n_0_1_164_wf : GatherDims.WF S50000x64 S1600000x1 S1600000x64 [1] [0] [] [0] [] 1 ![1, 64]
  dot_S6400x128_S64x128_S6400x64_1_1_0_0_n_n_wf : DotDims.WF S6400x128 S64x128 S6400x64 [1] [1] [0] [0] [] []
  dot_S6400x64_S64x64_S6400x64_1_1_0_0_n_n_wf : DotDims.WF S6400x64 S64x64 S6400x64 [1] [1] [0] [0] [] []
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x64.size a ≤ S1600000x64.size a
  hwx0_6 : ∀ i : grid0.Coords, EltTy.bits .f32 = 32 ∨ (Rect.block (s := S1600000x64) S6400x64.size (cc0_transform_6 i) (hinb0_6 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x128_S64x128_S6400x64_1_1_0_0_n_n : DotDims S6400x128 S64x128 S6400x64 where
  lhsContracting := [1]
  rhsContracting := [1]
  lhsNonContracting := [0]
  rhsNonContracting := [0]
  lhsBatch := []
  rhsBatch := []
  wf := dot_S6400x128_S64x128_S6400x64_1_1_0_0_n_n_wf
def dot_S6400x64_S64x64_S6400x64_1_1_0_0_n_n : DotDims S6400x64 S64x64 S6400x64 where
  lhsContracting := [1]
  rhsContracting := [1]
  lhsNonContracting := [0]
  rhsNonContracting := [0]
  lhsBatch := []
  rhsBatch := []
  wf := dot_S6400x64_S64x64_S6400x64_1_1_0_0_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S6400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 57
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x64, .f32⟩
  | .hbm, ⟨9, _⟩ => ⟨S1x64, .f32⟩
  | .hbm, ⟨10, _⟩ => ⟨S1600000x64, .f32⟩
  | .hbm, ⟨11, _⟩ => ⟨S1600000x64, .f32⟩
  | .hbm, ⟨12, _⟩ => ⟨S_, .f32⟩
  | .hbm, ⟨13, _⟩ => ⟨S1600000x64, .f32⟩
  | .hbm, ⟨14, _⟩ => ⟨S1600000x64, .f32⟩
  | .hbm, ⟨15, _⟩ => ⟨S_, .f32⟩
  | .hbm, ⟨16, _⟩ => ⟨S1600000x64, .f32⟩
  | .hbm, ⟨17, _⟩ => ⟨S1600000x64, .i1⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S1600000x64, .i1⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  dot_S1600000x128_S64x128_S1600000x64_1_1_0_0_n_n_wf : DotDims.WF S1600000x128 S64x128 S1600000x64 [1] [1] [0] [0] [] []
  dot_S1600000x64_S64x64_S1600000x64_1_1_0_0_n_n_wf : DotDims.WF S1600000x64 S64x64 S1600000x64 [1] [1] [0] [0] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S1600000x128_S64x128_S1600000x64_1_1_0_0_n_n : DotDims S1600000x128 S64x128 S1600000x64 where
  lhsContracting := [1]
  rhsContracting := [1]
  lhsNonContracting := [0]
  rhsNonContracting := [0]
  lhsBatch := []
  rhsBatch := []
  wf := dot_S1600000x128_S64x128_S1600000x64_1_1_0_0_n_n_wf
def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«106023_j83743272337867_2_alg».proof.Proof.LibPlainDot
import proofs.«106023_j83743272337867_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.EdgeSpec.lean ====
/-
  The message an edge sends, as one function of the arrays.

  An edge e carries 128 radial-basis numbers x(e, ·). A two-layer network turns them into 64 filter numbers:
  a first layer z(e, k) = ∑ r, x(e, r) · W1(k, r) + b1(k); the activation `act` (a softplus of slope one half,
  2 · log(1 + exp(z / 2)), written in its overflow-safe form max(z/2, 0) + log1p(exp(-|z/2|)), and switched to the
  identity where z / 2 > 14); a second layer h(e, d) = ∑ k, act(z(e, k)) · W2(d, k) + b2(d). The message is the
  source node's feature times the filter, g(e, d) · h(e, d).

  Both programs compute exactly this at the ideal values: they differ in where the rows of W1 and W2 are contracted
  (block by block, or at once) and in how the number -|z/2| is spelt (0 - |·| or the negation of |·|).
-/
import Idealize.ShloMosaic.PureOps.Ideal.Laws
import Idealize.ShloMosaic.Lib.ValueIdx

open scoped BigOperators

noncomputable section

namespace Cert.EdgeSpec

open Idealize.ShloMosaic Idealize.ShloMosaic.ValueIdx

/-- One half, fourteen, zero and two, as the float words both programs print. -/
abbrev cHalf : EReal := Ideal.ofBits .f32 0x3F000000#32
abbrev cThreshold : EReal := Ideal.ofBits .f32 0x41600000#32
abbrev cZero : EReal := Ideal.ofBits .f32 0x00000000#32
abbrev cTwo : EReal := Ideal.ofBits .f32 0x40000000#32

/-- The stable softplus of `a`: max(a, 0) + log1p(exp(-|a - 0|)), with the guard for an undefined difference
    (never taken on the extended reals, where every number equals itself) kept as both programs print it. -/
def softplus (a negAbs : EReal) : EReal :=
  Scalar.select (Ideal.cmp .one (a - cZero) (a - cZero)) (a + cZero) (max a cZero + Ideal.log1p (Ideal.exp negAbs))

/-- The activation: the identity where z / 2 exceeds fourteen, else twice the softplus of z / 2. -/
def act (z : EReal) : EReal :=
  Scalar.select (Ideal.cmp .ogt (cHalf * z) cThreshold) z
    (cTwo * softplus (cHalf * z) (cZero - FloatOps.absf (F := Ideal) (φ := .f32) (cHalf * z - cZero)))

/-- The zero word is the number zero. -/
theorem cZero_eq : cZero = 0 := Ideal.ofBits_zero_f32

/-- The same activation with -|a| spelt as a negation: 0 - y = -y on the extended reals. -/
theorem act_neg (z : EReal) :
    Scalar.select (Ideal.cmp .ogt (cHalf * z) cThreshold) z
      (cTwo * softplus (cHalf * z) (-(FloatOps.absf (F := Ideal) (φ := .f32) (cHalf * z - cZero)))) = act z := by
  unfold act
  rw [cZero_eq, zero_sub]

/-- The first layer's entry k for a row of radial-basis numbers. -/
def firstLayer (xrow : Fin 128 → EReal) (W1 : Fin 64 → Fin 128 → EReal) (b1 : Fin 64 → EReal) (k : Fin 64) : EReal :=
  (∑ r : Fin 128, xrow r * W1 k r) + b1 k

/-- The message's entry d: the source feature times the second layer's entry d. -/
def edgeMsg (xrow : Fin 128 → EReal) (W1 : Fin 64 → Fin 128 → EReal) (b1 : Fin 64 → EReal)
    (W2 : Fin 64 → Fin 64 → EReal) (b2 : Fin 64 → EReal) (g : EReal) (d : Fin 64) : EReal :=
  g * ((∑ k : Fin 64, act (firstLayer xrow W1 b1 k) * W2 d k) + b2 d)

/-- All messages: entry (e, d) from row e of the radial-basis array and the gathered source feature at (e, d). -/
def msgArr (x : (⟨2, ![1600000, 128]⟩ : Shape).Idx → EReal) (g : (⟨2, ![1600000, 64]⟩ : Shape).Idx → EReal)
    (W1 : (⟨2, ![64, 128]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨2, ![1600000, 64]⟩ : Shape).Idx → EReal :=
  fun i => edgeMsg (fun r => x (ix2 (i 0) r)) (fun k r => W1 (ix2 k r)) (fun k => b1 (ix1 k))
    (fun d k => W2 (ix2 d k)) (fun d => b2 (ix1 d)) (g i) (i 1)

end Cert.EdgeSpec

end
-- ==== Proof.KernelPayload.lean ====
/-
  What the kernel's body stores, read at one entry of its block.

  The body takes a block of 6400 edges: their radial-basis rows x0 (6400 × 128), their gathered source features x1
  (6400 × 64), the weights W1 (64 × 128), W2 (64 × 64) and the two biases as rows (1 × 64). It forms the first layer by a
  matrix product of x0 with the rows of W1 into a zero accumulator plus the bias row repeated down the block, applies
  the activation entry by entry, forms the second layer the same way from the rows of W2, and multiplies by x1 entry
  by entry. The changes of float format before each product are the identity at the ideal values. So the entry (p, q)
  of what is stored is the message of row p of the block, entry q.
-/
import proofs.«106023_j83743272337867_2_alg».proof.Proof.Gen.KernelIdeal.Skeleton
import proofs.«106023_j83743272337867_2_alg».proof.Proof.LibZeroAccDots
import proofs.«106023_j83743272337867_2_alg».proof.Proof.EdgeSpec
import Idealize.ShloMosaic.Lib.ValueIdx
import Idealize.ShloMosaic.Lib.ValueLayout
import Idealize.ShloMosaic.Lib.Pipeline.Value

open scoped BigOperators

noncomputable section

namespace Cert.KernelIdeal.Payload

open Cert.KernelIdeal Cert.KernelIdeal.Gen Cert.EdgeSpec Idealize.ShloMosaic Idealize.ShloMosaic.ValueIdx

/-- The first layer of a block: the product of the block's rows with the rows of W1, plus the bias row repeated. -/
def layer1 (x0 : Vec Ideal S6400x128 .f32) (x2 : Vec Ideal S64x128 .f32) (x3 : Vec Ideal S1x64 .f32) : FVec Ideal S6400x64 .f32 :=
  addf (matmul dot_S6400x128_S64x128_S6400x64_1_1_0_0_n_n none (truncf .bf16 x0 bitsLt_bf16_f32) (truncf .bf16 x2 bitsLt_bf16_f32)
      (constant S6400x64 .f32 0x00000000#32))
    (broadcastTo S6400x64 (shapeCast S1x64 x3 shapeCasts_S1x64_S1x64) broadcasts_S1x64_S6400x64)

/-- The activation applied to every entry of a block, as the body's vector operations spell it. -/
def actBlock (v8 : FVec Ideal S6400x64 .f32) : FVec Ideal S6400x64 .f32 :=
  have v14 : FVec Ideal S6400x64 .f32 := mulf (broadcast S6400x64 (Scalar.ofBits .f32 0x3F000000#32)) v8
  have z0 : FVec Ideal S6400x64 .f32 := broadcast S6400x64 (Scalar.ofBits .f32 0x00000000#32)
  have v18 : FVec Ideal S6400x64 .f32 := subf v14 z0
  select (cmpf .ogt (mulf (broadcast S6400x64 (Scalar.ofBits .f32 0x3F000000#32)) v8) (broadcast S6400x64 (Scalar.ofBits .f32 0x41600000#32))) v8
    (mulf (broadcast S6400x64 (Scalar.ofBits .f32 0x40000000#32))
      (select (cmpf .one v18 v18) (addf v14 z0)
        (addf (maximumf v14 z0) (log1p (exp (subf z0 (absf v18)))))))

/-- The body's first value is the second layer of the activated first layer. -/
theorem pay2_eq (x0 : Vec Ideal S6400x128 .f32) (x2 : Vec Ideal S64x128 .f32) (x3 : Vec Ideal S1x64 .f32)
    (x4 : Vec Ideal S64x64 .f32) (x5 : Vec Ideal S1x64 .f32) :
    k0_pay2 x0 x2 x3 x4 x5
      = addf (matmul dot_S6400x64_S64x64_S6400x64_1_1_0_0_n_n none (truncf .bf16 (actBlock (layer1 x0 x2 x3)) bitsLt_bf16_f32)
            (truncf .bf16 x4 bitsLt_bf16_f32) (constant S6400x64 .f32 0x00000000#32))
          (broadcastTo S6400x64 (shapeCast S1x64 x5 shapeCasts_S1x64_S1x64) broadcasts_S1x64_S6400x64) := rfl

/-- The activation of a block, entry by entry. -/
theorem actBlock_apply (v : FVec Ideal S6400x64 .f32) (j : S6400x64.Idx) : actBlock v j = act (v j) := rfl

/-- The first layer of a block at (p, k): the contraction of row p of the block with row k of W1, plus the bias. -/
theorem layer1_apply (x0 : Vec Ideal S6400x128 .f32) (x2 : Vec Ideal S64x128 .f32) (x3 : Vec Ideal S1x64 .f32)
    (p : Fin 6400) (k : Fin 64) :
    layer1 x0 x2 x3 (ix2 p k)
      = firstLayer (fun r => x0 (ix2 p r)) (fun k r => x2 (ix2 k r)) (fun k => x3 (ix2 (0 : Fin 1) k)) k := by
  unfold layer1 firstLayer
  rw [addf_apply, broadcastTo_1b_ab_apply, shapeCast_self]
  refine congrArg (· + x3 (ix2 (0 : Fin 1) k)) ?_
  exact Cert.ZeroAccDots.rows_rows dot_S6400x128_S64x128_S6400x64_1_1_0_0_n_n rfl rfl rfl rfl rfl rfl rfl rfl none
    (truncf .bf16 x0 bitsLt_bf16_f32) (truncf .bf16 x2 bitsLt_bf16_f32) p k

/-- THE STORED ENTRY: at (p, q) the body stores the message of row p, entry q. -/
theorem pay_apply (x0 : Vec Ideal S6400x128 .f32) (x1 : Vec Ideal S6400x64 .f32) (x2 : Vec Ideal S64x128 .f32)
    (x3 : Vec Ideal S1x64 .f32) (x4 : Vec Ideal S64x64 .f32) (x5 : Vec Ideal S1x64 .f32) (p : Fin 6400) (q : Fin 64) :
    k0_pay1 (k0_pay2 x0 x2 x3 x4 x5) x1 (ix2 p q)
      = edgeMsg (fun r => x0 (ix2 p r)) (fun k r => x2 (ix2 k r)) (fun k => x3 (ix2 (0 : Fin 1) k))
          (fun d k => x4 (ix2 d k)) (fun d => x5 (ix2 (0 : Fin 1) d)) (x1 (ix2 p q)) q := by
  rw [pay2_eq]
  unfold k0_pay1 edgeMsg
  dsimp only
  rw [mulf_apply, shapeCast_self, addf_apply, broadcastTo_1b_ab_apply, shapeCast_self]
  refine congrArg (fun s => x1 (ix2 p q) * (s + x5 (ix2 (0 : Fin 1) q))) ?_
  refine (Cert.ZeroAccDots.rows_rows dot_S6400x64_S64x64_S6400x64_1_1_0_0_n_n rfl rfl rfl rfl rfl rfl rfl rfl none
    (truncf .bf16 (actBlock (layer1 x0 x2 x3)) bitsLt_bf16_f32) (truncf .bf16 x4 bitsLt_bf16_f32) p q).trans ?_
  refine Finset.sum_congr rfl fun k _ => ?_
  show actBlock (layer1 x0 x2 x3) (ix2 p k) * x4 (ix2 q k) = _
  rw [actBlock_apply, layer1_apply]

end Cert.KernelIdeal.Payload

end
-- ==== Proof.BlockEntry.lean ====
/-
  An entry of the stored block as an entry of the message array.

  When the block's radial-basis rows and source features are rows n·6400 … n·6400 + 6399 of whole arrays X and G, and
  the weights and bias rows are those of W1, b1, W2, b2, then the entry (p, q) the body stores is the message array's
  entry (n·6400 + p, q): a message depends on its own edge's row only.
-/
import proofs.«106023_j83743272337867_2_alg».proof.Proof.KernelPayload

noncomputable section

namespace Cert.KernelIdeal.Payload

open Cert.KernelIdeal Cert.KernelIdeal.Gen Cert.EdgeSpec Idealize.ShloMosaic Idealize.ShloMosaic.ValueIdx

theorem block_entry
    (X : S1600000x128.Idx → EReal) (G : S1600000x64.Idx → EReal) (W1 : S64x128.Idx → EReal) (b1 : S64.Idx → EReal)
    (W2 : S64x64.Idx → EReal) (b2 : S64.Idx → EReal)
    (x0 : Vec Ideal S6400x128 .f32) (x1 : Vec Ideal S6400x64 .f32) (x2 : Vec Ideal S64x128 .f32) (x3 : Vec Ideal S1x64 .f32)
    (x4 : Vec Ideal S64x64 .f32) (x5 : Vec Ideal S1x64 .f32)
    (n : Nat) (j : S6400x64.Idx) (i : S1600000x64.Idx)
    (hi0 : (i 0).val = n * 6400 + (j 0).val) (hi1 : (i 1).val = (j 1).val)
    (h0 : ∀ (y : S6400x128.Idx) (k : S1600000x128.Idx), (k 0).val = n * 6400 + (y 0).val → (k 1).val = (y 1).val → x0 y = X k)
    (h1 : ∀ (y : S6400x64.Idx) (k : S1600000x64.Idx), (k 0).val = n * 6400 + (y 0).val → (k 1).val = (y 1).val → x1 y = G k)
    (h2 : ∀ y, x2 y = W1 y) (h3 : ∀ q : Fin 64, x3 (ix2 (0 : Fin 1) q) = b1 (ix1 q))
    (h4 : ∀ y, x4 y = W2 y) (h5 : ∀ q : Fin 64, x5 (ix2 (0 : Fin 1) q) = b2 (ix1 q)) :
    k0_pay1 (k0_pay2 x0 x2 x3 x4 x5) x1 j = msgArr X G W1 b1 W2 b2 i := by
  obtain ⟨p, q, rfl⟩ : ∃ (p : Fin 6400) (q : Fin 64), j = ix2 p q := ⟨j 0, j 1, eq_ix2 j⟩
  rw [pay_apply]
  unfold msgArr
  have e1 : i 1 = q := Fin.ext hi1
  have hx : (fun r => x0 (ix2 p r)) = fun r => X (ix2 (i 0) r) := funext fun r => h0 _ _ hi0 rfl
  have hg : x1 (ix2 p q) = G i := h1 _ _ hi0 hi1
  rw [hx, hg, e1]
  simp only [h2, h3, h4, h5]

end Cert.KernelIdeal.Payload

end
-- ==== Proof.KernelValue.lean ====
/-
  What the kernel program computes, as one term of its arguments.

  Before the region the host gathers, for every edge, its source node's feature row (node indices below zero shifted
  by the node count first), and views the two bias vectors as rows. The region's grid has 250 points; point t takes rows
  6400·t … 6400·t + 6399 of the radial-basis array and of the gathered features, the whole weights and bias rows, and
  writes back the same rows of the message array. So block t of what is written back is block t of ONE array, the
  messages of all edges, and the 250 blocks cover that array's 1,600,000 rows. After the region the host adds every
  message row onto the row of its destination node, starting from zero.
-/
import proofs.«106023_j83743272337867_2_alg».proof.Proof.Gen.KernelIdeal.Frame
import proofs.«106023_j83743272337867_2_alg».proof.Proof.BlockEntry
import Idealize.ShloMosaic.Lib.Pipeline.Value
import Idealize.ShloMosaic.Lib.ValueLayout
import Idealize.ShloMosaic.Lib.StableHlo.Run

set_option maxRecDepth 16384

noncomputable section

namespace Cert.KernelIdeal.EdgeValue

open Cert.KernelIdeal Cert.KernelIdeal.Gen Cert.EdgeSpec Idealize.ShloMosaic Idealize.ShloMosaic.TcCoe Idealize.SL.Sem
open Idealize.ShloMosaic.ValueIdx
open Idealize.ShloMosaic.Pipeline (Dat)

/-! ## The terms -/

/-- The gathered source features: row e is the feature row of edge e's source node, the node index shifted by the
    node count where it is negative. -/
def gathered (x1 : (⟨S50000x64, .f32⟩ : BufTy).Contents (Elt Ideal)) (x2 : (⟨S1600000, .i32⟩ : BufTy).Contents (Elt Ideal)) :
    (⟨S1600000x64, .f32⟩ : BufTy).Contents (Elt Ideal) :=
  Host.gather gather_S50000x64_S1600000x1_S1600000x64_1_0_n_n_0_1_164 x1
    (broadcastInDim S1600000x1 ![0] bcast_S1600000_S1600000x1_0
      (select (cmpi .slt x2 (broadcastInDim S1600000 ![] bcast_S_S1600000 (constantI S_ 32 0#32)))
        (addi x2 (broadcastInDim S1600000 ![] bcast_S_S1600000 (constantI S_ 32 50000#32))) x2))

/-- The result: every message row added onto its destination node's row, from zero. -/
def result (x0 : (⟨S1600000x128, .f32⟩ : BufTy).Contents (Elt Ideal)) (x1 : (⟨S50000x64, .f32⟩ : BufTy).Contents (Elt Ideal))
    (x2 x3 : (⟨S1600000, .i32⟩ : BufTy).Contents (Elt Ideal)) (x4 : (⟨S64x128, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) : (⟨S50000x64, .f32⟩ : BufTy).Contents (Elt Ideal) :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 x3)
    (msgArr x0 (gathered x1 x2) x4 x5 x6 x7)

variable (m : (ℓ : Loc nD τ sig) → Buf (Elt Ideal) ℓ) (ρ : Dev nD → PrngReg)

/-- The message array of the arguments as launched. -/
def msgs (c : Dev nD) : Buf (Elt Ideal) ((c : Thread nD τ).loc main_v9) :=
  msgArr (m ((c : Thread nD τ).loc main_arg0)) (gathered (m ((c : Thread nD τ).loc main_arg1)) (m ((c : Thread nD τ).loc main_arg2)))
    (m ((c : Thread nD τ).loc main_arg4)) (m ((c : Thread nD τ).loc main_arg5)) (m ((c : Thread nD τ).loc main_arg6))
    (m ((c : Thread nD τ).loc main_arg7))

/-! ## What the region finds in the arrays the host wrote -/

theorem V_v6 (c : Dev nD) : V m c main_v6 = gathered (m ((c : Thread nD τ).loc main_arg1)) (m ((c : Thread nD τ).loc main_arg2)) := by
  show StableHlo.after hostOps0 (fun b => m (c, b)) (Proc.devRef .tc main_v6) = _
  after_results
  rfl

theorem V_v7 (c : Dev nD) : V m c main_v7 = shapeCast S1x64 (m ((c : Thread nD τ).loc main_arg5)) shapeCasts_S64_S1x64 := by
  show StableHlo.after hostOps0 (fun b => m (c, b)) (Proc.devRef .tc main_v7) = _
  after_results
  rfl

theorem V_v8 (c : Dev nD) : V m c main_v8 = shapeCast S1x64 (m ((c : Thread nD τ).loc main_arg7)) shapeCasts_S64_S1x64 := by
  show StableHlo.after hostOps0 (fun b => m (c, b)) (Proc.devRef .tc main_v8) = _
  after_results
  rfl

/-! ## Which rows a point's blocks are -/

/-- The index maps, decided over the 250 points: the edge arrays' blocks move with the point, the weights and bias rows
    stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The radial-basis block at point t is rows 6400·t … of the argument. -/
theorem iblk0_apply (c : Dev nD) (t : Fin cfg0.N) (y : S6400x128.Idx) (k : S1600000x128.Idx)
    (hk0 : (k 0).val = t.val * 6400 + (y 0).val) (hk1 : (k 1).val = (y 1).val) :
    (iblk m c 0 t : Vec Ideal S6400x128 .f32) y = (m ((c : Thread nD τ).loc main_arg0) : S1600000x128.Idx → EReal) k := by
  obtain ⟨e0, e1, -⟩ := idx_facts t
  unfold iblk
  rw [View.read_apply]
  show V m c main_arg0 (((cfg0.win 0).blk t).view.emb y) = _
  rw [V_main_arg0]
  refine congrArg (m ((c : Thread nD τ).loc main_arg0) : S1600000x128.Idx → EReal) (funext fun a => Fin.ext ?_)
  match a with
  | ⟨0, _⟩ => show win0_0.index t (0 : Fin 2) * 6400 + 1 * (y 0).val = (k 0).val; rw [e0, hk0]; omega
  | ⟨1, _⟩ => show win0_0.index t (1 : Fin 2) * 128 + 1 * (y 1).val = (k 1).val; rw [e1, hk1]; omega

/-- The source-feature block at point t is rows 6400·t … of the gathered features. -/
theorem iblk1_apply (c : Dev nD) (t : Fin cfg0.N) (y : S6400x64.Idx) (k : S1600000x64.Idx)
    (hk0 : (k 0).val = t.val * 6400 + (y 0).val) (hk1 : (k 1).val = (y 1).val) :
    (iblk m c 1 t : Vec Ideal S6400x64 .f32) y
      = gathered (m ((c : Thread nD τ).loc main_arg1)) (m ((c : Thread nD τ).loc main_arg2)) k := by
  obtain ⟨-, -, e0, e1, -⟩ := idx_facts t
  unfold iblk
  rw [View.read_apply]
  show V m c main_v6 (((cfg0.win 1).blk t).view.emb y) = _
  rw [V_v6]
  refine congrArg (gathered (m ((c : Thread nD τ).loc main_arg1)) (m ((c : Thread nD τ).loc main_arg2))) (funext fun a => Fin.ext ?_)
  match a with
  | ⟨0, _⟩ => show win0_1.index t (0 : Fin 2) * 6400 + 1 * (y 0).val = (k 0).val; rw [e0, hk0]; omega
  | ⟨1, _⟩ => show win0_1.index t (1 : Fin 2) * 64 + 1 * (y 1).val = (k 1).val; rw [e1, hk1]; omega

/-- The first weights' block is the whole argument at every point. -/
theorem iblk2_apply (c : Dev nD) (t : Fin cfg0.N) (y : S64x128.Idx) :
    (iblk m c 2 t : Vec Ideal S64x128 .f32) y = (m ((c : Thread nD τ).loc main_arg4) : S64x128.Idx → EReal) y := by
  obtain ⟨-, -, -, -, e0, e1, -⟩ := idx_facts t
  unfold iblk
  rw [View.read_apply]
  show V m c main_arg4 (((cfg0.win 2).blk t).view.emb y) = _
  rw [V_main_arg4]
  refine congrArg (m ((c : Thread nD τ).loc main_arg4) : S64x128.Idx → EReal) (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- The first bias row's block is the first bias vector, viewed as a row, at every point. -/
theorem iblk3_apply (c : Dev nD) (t : Fin cfg0.N) (q : Fin 64) :
    (iblk m c 3 t : Vec Ideal S1x64 .f32) (ix2 (0 : Fin 1) q) = (m ((c : Thread nD τ).loc main_arg5) : S64.Idx → EReal) (ix1 q) := by
  obtain ⟨-, -, -, -, -, -, e0, e1, -⟩ := idx_facts t
  unfold iblk
  rw [View.read_apply]
  show V m c main_v7 (((cfg0.win 3).blk t).view.emb (ix2 (0 : Fin 1) q)) = _
  rw [V_v7]
  refine (congrArg (shapeCast S1x64 (m ((c : Thread nD τ).loc main_arg5)) shapeCasts_S64_S1x64) (funext fun a => Fin.ext ?_)).trans
    (shapeCast_a_1a_apply (m ((c : Thread nD τ).loc main_arg5)) shapeCasts_S64_S1x64 (0 : Fin 1) q)
  match a with
  | ⟨0, _⟩ => show win0_3.index t (0 : Fin 2) * 1 + 1 * 0 = 0; rw [e0]
  | ⟨1, _⟩ => show win0_3.index t (1 : Fin 2) * 64 + 1 * q.val = q.val; rw [e1]; omega

/-- The second weights' block is the whole argument at every point. -/
theorem iblk4_apply (c : Dev nD) (t : Fin cfg0.N) (y : S64x64.Idx) :
    (iblk m c 4 t : Vec Ideal S64x64 .f32) y = (m ((c : Thread nD τ).loc main_arg6) : S64x64.Idx → EReal) y := by
  obtain ⟨-, -, -, -, -, -, -, -, e0, e1, -⟩ := idx_facts t
  unfold iblk
  rw [View.read_apply]
  show V m c main_arg6 (((cfg0.win 4).blk t).view.emb y) = _
  rw [V_main_arg6]
  refine congrArg (m ((c : Thread nD τ).loc main_arg6) : S64x64.Idx → EReal) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The second bias row's block is the second bias vector, viewed as a row, at every point. -/
theorem iblk5_apply (c : Dev nD) (t : Fin cfg0.N) (q : Fin 64) :
    (iblk m c 5 t : Vec Ideal S1x64 .f32) (ix2 (0 : Fin 1) q) = (m ((c : Thread nD τ).loc main_arg7) : S64.Idx → EReal) (ix1 q) := by
  obtain ⟨-, -, -, -, -, -, -, -, -, -, e0, e1, -⟩ := idx_facts t
  unfold iblk
  rw [View.read_apply]
  show V m c main_v8 (((cfg0.win 5).blk t).view.emb (ix2 (0 : Fin 1) q)) = _
  rw [V_v8]
  refine (congrArg (shapeCast S1x64 (m ((c : Thread nD τ).loc main_arg7)) shapeCasts_S64_S1x64) (funext fun a => Fin.ext ?_)).trans
    (shapeCast_a_1a_apply (m ((c : Thread nD τ).loc main_arg7)) shapeCasts_S64_S1x64 (0 : Fin 1) q)
  match a with
  | ⟨0, _⟩ => show win0_5.index t (0 : Fin 2) * 1 + 1 * 0 = 0; rw [e0]
  | ⟨1, _⟩ => show win0_5.index t (1 : Fin 2) * 64 + 1 * q.val = q.val; rw [e1]; omega

/-! ## What a point writes back, and the array after the region -/

theorem hz : (![0, 0] : Fin 2 → Nat) = fun _ => 0 := funext fun a => by fin_cases a <;> rfl

/-- WHAT POINT t WRITES BACK is block t of the message array. -/
theorem flushed_eq (c : Dev nD) (t : Fin cfg0.N) :
    (dats m 0 c).flushed 6 t = ((cfg0.win 6).blk t).view.read (Elt Ideal) (msgs m c) := by
  show (cfg0.win 6).cut (grid0.coords t) ((dats m 0 c).after 6 t) = _
  rw [after0_6]
  unfold out0_6
  rw [View.canon_unit_zero hz]
  simp only [View.ld_unit_zero (S := S6400x128) hz, View.ld_unit_zero (S := S6400x64) hz, View.ld_unit_zero (S := S64x128) hz,
    View.ld_unit_zero (S := S1x64) hz, View.ld_unit_zero (S := S64x64) hz]
  obtain ⟨-, -, -, -, -, -, -, -, -, -, -, -, e0, e1⟩ := idx_facts t
  funext j
  show k0_pay1 (k0_pay2 (iblk m c 0 t) (iblk m c 2 t) (iblk m c 3 t) (iblk m c 4 t) (iblk m c 5 t)) (iblk m c 1 t) j
    = msgs m c (((cfg0.win 6).blk t).view.emb j)
  refine Payload.block_entry (m ((c : Thread nD τ).loc main_arg0))
    (gathered (m ((c : Thread nD τ).loc main_arg1)) (m ((c : Thread nD τ).loc main_arg2)))
    (m ((c : Thread nD τ).loc main_arg4)) (m ((c : Thread nD τ).loc main_arg5)) (m ((c : Thread nD τ).loc main_arg6))
    (m ((c : Thread nD τ).loc main_arg7))
    (iblk m c 0 t) (iblk m c 1 t) (iblk m c 2 t) (iblk m c 3 t) (iblk m c 4 t) (iblk m c 5 t) t.val j
    (((cfg0.win 6).blk t).view.emb j) ?_ ?_
    (fun y k h0 h1 => iblk0_apply m c t y k h0 h1) (fun y k h0 h1 => iblk1_apply m c t y k h0 h1)
    (iblk2_apply m c t) (iblk3_apply m c t) (iblk4_apply m c t) (iblk5_apply m c t)
  · show win0_6.index t (0 : Fin 2) * 6400 + 1 * (j 0).val = t.val * 6400 + (j 0).val
    rw [e0]; omega
  · show win0_6.index t (1 : Fin 2) * 64 + 1 * (j 1).val = (j 1).val
    rw [e1]; omega

/-- An index of the message array is in point t's block iff each coordinate is in the block's range on its axis. -/
theorem mem_blk (t : Fin cfg0.N) (i : S1600000x64.Idx) :
    i ∈ ((cfg0.win 6).blk t).view.set ↔ ∀ a : Fin 2, win0_6.index t a * S6400x64.size a ≤ (i a).val
      ∧ (i a).val < win0_6.index t a * S6400x64.size a + S6400x64.size a := by
  show i ∈ ((View.whole main_v9).slice (win0_6.rect t)).set ↔ _
  rw [View.set_slice_whole, Rect.mem_set_unit]
  exact Iff.rfl

/-- Every row of the message array is in the block of the point numbered by the row's quotient by 6400. -/
theorem cover (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  obtain ⟨t, ht⟩ : ∃ t : Fin cfg0.N, t.val = (i 0).val / 6400 :=
    ⟨⟨(i 0).val / 6400, by rw [show cfg0.N = 250 from N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 6400 ≤ (i 0).val ∧ (i 0).val < win0_6.index t (0 : Fin 2) * 6400 + 6400
    rw [e0, ht]; omega
  | ⟨1, _⟩ =>
    show win0_6.index t (1 : Fin 2) * 64 ≤ (i 1).val ∧ (i 1).val < win0_6.index t (1 : Fin 2) * 64 + 64
    rw [e1]; omega

/-- THE MESSAGE ARRAY after the region. -/
theorem final (c : Dev nD) : (dats m 0 c).arrAt 6 cfg0.N = msgs m c :=
  (dats m 0 c).arrAt_eq_of_cover 6 (msgs m c) (fun t _ => flushed_eq m c t) cover

/-! ## The lines after the region, and the run -/

/-- The program's result: the scatter-add of the message array by the destination indices, from zero. -/
theorem tail_eq (c : Dev nD) :
    Pipeline.afterTail₀ cfgs (dats m) 0 (V0 m) [hostOps1] c main_v12
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have e9 : Pipeline.withArrays (cfgs 0).spec c (V0 m c) (fun w => (dats m 0 c).arrAt w (cfgs 0).N) (Proc.devRef .tc main_v9)
      = msgs m c :=
    (Pipeline.withArrays_arr spec0 launch0.win.arr_inj c _ _ 6).trans (final m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by decide)).trans (V_main_arg3 m c)
  unfold Pipeline.afterTail₀
  show StableHlo.after hostOps1 _ (Proc.devRef .tc main_v12) = _
  after_results
  rw [e9, e3]
  rfl

/-- The run, read: the result at the scatter-add of the messages, the arguments unchanged. -/
theorem run : θ_run defs (onTc (τ := τ) (main (F := Ideal))) ⟨m, fun _ => 0, ρ⟩ (fun r => ∀ c : Dev nD,
      r.2.mem ((c.tc : Thread nD τ).loc main_v12)
        = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c))⟩)
    (run_main m ρ)

end Cert.KernelIdeal.EdgeValue

end
-- ==== Proof.RefMsg.lean ====
/-
  The reference's messages, read at one entry.

  The reference forms the first layer for all edges at once (a contraction of the radial-basis array with the rows of
  W1, plus the bias repeated down the edges), applies the activation entry by entry, forms the second layer the same
  way from the rows of W2, and multiplies by the gathered source features. Read at the entry (e, d) this is the message
  of row e of the radial-basis array, entry d: the same function the kernel's block entries are.
-/
import proofs.«106023_j83743272337867_2_alg».proof.Proof.Gen.ReferenceIdeal.Read
import proofs.«106023_j83743272337867_2_alg».proof.Proof.EdgeSpec
import Idealize.ShloMosaic.Lib.ValueIdx

open scoped BigOperators

noncomputable section

namespace Cert.ReferenceIdeal.RefMsg

open Cert.ReferenceIdeal Cert.ReferenceIdeal.Read Cert.EdgeSpec Idealize.ShloMosaic Idealize.ShloMosaic.ValueIdx

/-! ## Where each operation reads its operands -/

theorem lidx0 (e : Fin 1600000) (k : Fin 64) (r : Fin 128) : lidx_main_v0 (ix2 e k) r = ix2 e r :=
  funext fun a => Fin.ext (by match a with | ⟨0, _⟩ => rfl | ⟨1, _⟩ => rfl)
theorem ridx0 (e : Fin 1600000) (k : Fin 64) (r : Fin 128) : ridx_main_v0 (ix2 e k) r = ix2 k r :=
  funext fun a => Fin.ext (by match a with | ⟨0, _⟩ => rfl | ⟨1, _⟩ => rfl)
theorem bidx1 (e : Fin 1600000) (k : Fin 64) : idx_main_v1 (idx_main_v2 (ix2 e k)) = ix1 k :=
  funext fun a => Fin.ext (by match a with | ⟨0, _⟩ => rfl)
theorem lidx14 (e : Fin 1600000) (d : Fin 64) (k : Fin 64) : lidx_main_v14 (ix2 e d) k = ix2 e k :=
  funext fun a => Fin.ext (by match a with | ⟨0, _⟩ => rfl | ⟨1, _⟩ => rfl)
theorem ridx14 (e : Fin 1600000) (d : Fin 64) (k : Fin 64) : ridx_main_v14 (ix2 e d) k = ix2 d k :=
  funext fun a => Fin.ext (by match a with | ⟨0, _⟩ => rfl | ⟨1, _⟩ => rfl)
theorem bidx15 (e : Fin 1600000) (d : Fin 64) : idx_main_v15 (idx_main_v16 (ix2 e d)) = ix1 d :=
  funext fun a => Fin.ext (by match a with | ⟨0, _⟩ => rfl)

/-! ## The two layers -/

/-- The first layer at (e, k): the contraction of row e with row k of W1, plus the bias. -/
theorem layer1_apply (x0 : (⟨S1600000x128, .f32⟩ : BufTy).Contents (Elt Ideal)) (x4 : (⟨S64x128, .f32⟩ : BufTy).Contents (Elt Ideal))
    (x5 : (⟨S64, .f32⟩ : BufTy).Contents (Elt Ideal)) (e : Fin 1600000) (k : Fin 64) :
    val_main_v3 (F := Ideal) x0 x4 x5 (ix2 e k)
      = firstLayer (fun r => x0 (ix2 e r)) (fun k r => x4 (ix2 k r)) (fun k => x5 (ix1 k)) k := by
  rw [val_main_v3_apply, val_main_v0_apply, val_main_v2_apply, val_main_v1_apply, bidx1]
  simp only [lidx0, ridx0]
  rfl

/-- The activated first layer, entry by entry: the reference's chain of operations is the activation. -/
theorem act_apply (x0 : (⟨S1600000x128, .f32⟩ : BufTy).Contents (Elt Ideal)) (x4 : (⟨S64x128, .f32⟩ : BufTy).Contents (Elt Ideal))
    (x5 : (⟨S64, .f32⟩ : BufTy).Contents (Elt Ideal)) (i : S1600000x64.Idx) :
    val_main_v13 (F := Ideal) x0 x4 x5 i = act (val_main_v3 (F := Ideal) x0 x4 x5 i) := by
  simp only [val_main_v13_apply, val_main_v7_apply, val_main_v12_apply, val_main_v5_apply, val_main_v4_apply,
    val_main_cst_apply, val_main_v6_apply, val_main_cst_0_apply, val_main_v11_apply, val_main_cst_2_apply,
    val_main_v10_apply, val_main_call0_v4_apply, val_main_call0_v3_apply, val_main_v9_apply, val_main_v8_apply,
    val_main_cst_1_apply, val_main_call0_v2_apply, val_main_call0_cst_apply, val_main_call0_v6_apply,
    val_main_call0_v5_apply, val_main_call0_v11_apply, val_main_call0_v1_apply, val_main_call0_v0_apply,
    val_main_call0_v10_apply, val_main_call0_v9_apply, val_main_call0_v8_apply, val_main_call0_v7_apply]
  exact act_neg _

/-- THE MESSAGES: the reference's product of the gathered features with the second layer is the message array. -/
theorem msg_eq (x0 : (⟨S1600000x128, .f32⟩ : BufTy).Contents (Elt Ideal)) (x1 : (⟨S50000x64, .f32⟩ : BufTy).Contents (Elt Ideal))
    (x2 : (⟨S1600000, .i32⟩ : BufTy).Contents (Elt Ideal)) (x4 : (⟨S64x128, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v25 (F := Ideal) x0 x1 x2 x4 x5 x6 x7 = msgArr x0 (val_main_v24 (F := Ideal) x1 x2) x4 x5 x6 x7 := by
  funext i
  obtain ⟨e, d, rfl⟩ : ∃ (e : Fin 1600000) (d : Fin 64), i = ix2 e d := ⟨i 0, i 1, eq_ix2 i⟩
  rw [val_main_v25_apply, val_main_v17_apply, val_main_v14_apply, val_main_v16_apply, val_main_v15_apply, bidx15]
  simp only [lidx14, ridx14, act_apply, layer1_apply]
  rfl

end Cert.ReferenceIdeal.RefMsg

end
-- ==== Proof.lean ====
/-
  The kernel program against its reference, at the ideal values.

  Both programs send, along every edge e, the message g(e, ·) · h(e, ·): g the feature row of the edge's source node,
  h a two-layer network of the edge's 128 radial-basis numbers (a contraction with the rows of W1 plus a bias, a
  thresholded softplus, a contraction with the rows of W2 plus a bias); and both add every message row onto the row of
  the edge's destination node, starting from zero. The kernel program gathers g on the host, computes the messages in
  250 blocks of 6400 edges inside the region, and scatter-adds on the host; the reference does all of it on the host.

  Proof/EdgeSpec.lean states the message as one function of the arrays; Proof/KernelPayload.lean and Proof/BlockEntry.lean
  read the kernel body's stored block at an entry; Proof/KernelValue.lean reads the kernel program's run: the region
  leaves the message array (the blocks are its rows, and cover it), and the lines after the region scatter-add it;
  Proof/RefMsg.lean reads the reference's messages at an entry. Here: the two results are one term (the gather of the
  source features and the scatter-add are the same host operations of the same operands on both sides, and are never
  opened), the three frames, and the claim. No law of arithmetic beyond 0 - y = -y joins the two sides, so the
  precondition is not used.
-/
import proofs.«106023_j83743272337867_2_alg».proof.Defs
import proofs.«106023_j83743272337867_2_alg».proof.Proof.Gen.Kernel
import proofs.«106023_j83743272337867_2_alg».proof.Proof.Gen.Kernel.Skeleton
import proofs.«106023_j83743272337867_2_alg».proof.Proof.Gen.Kernel.Launch
import proofs.«106023_j83743272337867_2_alg».proof.Proof.Gen.Kernel.Points
import proofs.«106023_j83743272337867_2_alg».proof.Proof.Gen.Kernel.Frame
import proofs.«106023_j83743272337867_2_alg».proof.Proof.Gen.KernelIdeal
import proofs.«106023_j83743272337867_2_alg».proof.Proof.Gen.KernelIdeal.Skeleton
import proofs.«106023_j83743272337867_2_alg».proof.Proof.Gen.KernelIdeal.Launch
import proofs.«106023_j83743272337867_2_alg».proof.Proof.Gen.KernelIdeal.Points
import proofs.«106023_j83743272337867_2_alg».proof.Proof.Gen.KernelIdeal.Frame
import proofs.«106023_j83743272337867_2_alg».proof.Proof.Gen.ReferenceIdeal
import proofs.«106023_j83743272337867_2_alg».proof.Proof.Gen.Pre_finite_inputs
import proofs.«106023_j83743272337867_2_alg».proof.Proof.Gen.ReferenceIdeal.Run
import proofs.«106023_j83743272337867_2_alg».proof.Proof.Gen.ReferenceIdeal.Read
import proofs.«106023_j83743272337867_2_alg».proof.Proof.KernelValue
import proofs.«106023_j83743272337867_2_alg».proof.Proof.RefMsg
import Idealize.ShloMosaic.Adequacy
import Idealize.ShloMosaic.Init

noncomputable section

namespace Cert.Proof

open Idealize.ShloMosaic Idealize.SL.Sem

/-- The reference's result is the kernel program's: the scatter-add, by the same destination indices and from the same
    zeros, of the same message array (the reference's messages are that array, entry by entry). -/
theorem results_agree (x0 : (⟨Cert.ReferenceIdeal.S1600000x128, .f32⟩ : BufTy).Contents (Elt Ideal))
    (x1 : (⟨Cert.ReferenceIdeal.S50000x64, .f32⟩ : BufTy).Contents (Elt Ideal))
    (x2 x3 : (⟨Cert.ReferenceIdeal.S1600000, .i32⟩ : BufTy).Contents (Elt Ideal))
    (x4 : (⟨Cert.ReferenceIdeal.S64x128, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal)) :
    Cert.ReferenceIdeal.Read.val_main_v28 (F := Ideal) x0 x1 x2 x3 x4 x5 x6 x7
      = Cert.KernelIdeal.EdgeValue.result x0 x1 x2 x3 x4 x5 x6 x7 := by
  unfold Cert.ReferenceIdeal.Read.val_main_v28 Cert.KernelIdeal.EdgeValue.result
  rw [Cert.ReferenceIdeal.RefMsg.msg_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- From memories agreeing on the arguments both programs end with the scatter-add of the message array. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, results_agree, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
